-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S64x128 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S64x128 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S5000x128 : Shape := ⟨2, ![5000, 128]⟩
abbrev S1700000x128 : Shape := ⟨2, ![1700000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩
abbrev S1700000x64 : Shape := ⟨2, ![1700000, 64]⟩

abbrev nBuf : Space → Nat
  | .hbm => 153
  | .vmem => 18
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S64x128, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S128x128, .f32⟩
  | 49 => ⟨S1x128, .f32⟩
  | 50 => ⟨S100000x128, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x128, .f32⟩
  | 76 => ⟨S1700000x1, .f32⟩
  | 77 => ⟨S1700000x128, .f32⟩
  | 78 => ⟨S1700000x128, .f32⟩
  | 79 => ⟨S_, .f32⟩
  | 80 => ⟨S100000x128, .f32⟩
  | 81 => ⟨S1700000x1, .i32⟩
  | 82 => ⟨S100000x128, .f32⟩
  | 83 => ⟨S128x128, .f32⟩
  | 84 => ⟨S1x128, .f32⟩
  | 85 => ⟨S100000x128, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x128, .f32⟩
  | 95 => ⟨S1700000x1, .f32⟩
  | 96 => ⟨S1700000x128, .f32⟩
  | 97 => ⟨S1700000x128, .f32⟩
  | 98 => ⟨S_, .f32⟩
  | 99 => ⟨S100000x128, .f32⟩
  | 100 => ⟨S1700000x1, .i32⟩
  | 101 => ⟨S100000x128, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x1, .f32⟩
  | 112 => ⟨S1700000x128, .f32⟩
  | 113 => ⟨S1700000x128, .f32⟩
  | 114 => ⟨S_, .f32⟩
  | 115 => ⟨S100000x128, .f32⟩
  | 116 => ⟨S1700000x1, .i32⟩
  | 117 => ⟨S100000x128, .f32⟩
  | 118 => ⟨S128x64, .f32⟩
  | 119 => ⟨S1x64, .f32⟩
  | 120 => ⟨S100000x64, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x128, .f32⟩

abbrev hbmTy0_1 (i : Nat) : BufTy := match i % 128 with
  | 0 => ⟨S1700000x1, .i32⟩
  | 1 => ⟨S1700000x64, .f32⟩
  | 2 => ⟨S1700000x1, .f32⟩
  | 3 => ⟨S1700000x64, .f32⟩
  | 4 => ⟨S1700000x64, .f32⟩
  | 5 => ⟨S_, .f32⟩
  | 6 => ⟨S100000x64, .f32⟩
  | 7 => ⟨S1700000x1, .i32⟩
  | 8 => ⟨S100000x64, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000x64, .f32⟩
  | 18 => ⟨S1700000x1, .f32⟩
  | 19 => ⟨S1700000x64, .f32⟩
  | 20 => ⟨S1700000x64, .f32⟩
  | 21 => ⟨S_, .f32⟩
  | 22 => ⟨S100000x64, .f32⟩
  | 23 => ⟨S1700000x1, .i32⟩
  | 24 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_15 : Ref sig .tc := ⟨.hbm, 102, rfl⟩
abbrev main_v75 : Ref sig .tc := ⟨.hbm, 103, rfl⟩
abbrev main_v76 : Ref sig .tc := ⟨.hbm, 104, rfl⟩
abbrev main_c_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_18 : Ref sig .tc := ⟨.hbm, 121, rfl⟩
abbrev main_v91 : Ref sig .tc := ⟨.hbm, 122, rfl⟩
abbrev main_v92 : Ref sig .tc := ⟨.hbm, 123, rfl⟩
abbrev main_c_19 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_20 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_21 : Ref sig .tc := ⟨.hbm, 137, rfl⟩
abbrev main_v104 : Ref sig .tc := ⟨.hbm, 138, rfl⟩
abbrev main_v105 : Ref sig .tc := ⟨.hbm, 139, rfl⟩
abbrev main_c_22 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_23 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v58) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v87) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩
abbrev S128x64 : Shape := ⟨2, ![128, 64]⟩
abbrev S100000x64 : Shape := ⟨2, ![100000, 64]⟩
abbrev S1x64 : Shape := ⟨2, ![1, 64]⟩
abbrev S1700000x64 : Shape := ⟨2, ![1700000, 64]⟩

abbrev nBuf : Space → Nat
  | .hbm => 159
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S64x128, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S128x128, .f32⟩
  | 49 => ⟨S100000x128, .f32⟩
  | 50 => ⟨S1x128, .f32⟩
  | 51 => ⟨S100000x128, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000x128, .f32⟩
  | 78 => ⟨S1700000x1, .f32⟩
  | 79 => ⟨S1700000x128, .f32⟩
  | 80 => ⟨S1700000x128, .f32⟩
  | 81 => ⟨S_, .f32⟩
  | 82 => ⟨S100000x128, .f32⟩
  | 83 => ⟨S1700000x1, .i32⟩
  | 84 => ⟨S100000x128, .f32⟩
  | 85 => ⟨S128x128, .f32⟩
  | 86 => ⟨S100000x128, .f32⟩
  | 87 => ⟨S1x128, .f32⟩
  | 88 => ⟨S100000x128, .f32⟩
  | 89 => ⟨S100000x128, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x128, .f32⟩
  | 99 => ⟨S1700000x1, .f32⟩
  | 100 => ⟨S1700000x128, .f32⟩
  | 101 => ⟨S1700000x128, .f32⟩
  | 102 => ⟨S_, .f32⟩
  | 103 => ⟨S100000x128, .f32⟩
  | 104 => ⟨S1700000x1, .i32⟩
  | 105 => ⟨S100000x128, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x1, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S128x64, .f32⟩
  | 123 => ⟨S100000x64, .f32⟩
  | 124 => ⟨S1x64, .f32⟩
  | 125 => ⟨S100000x64, .f32⟩
  | 126 => ⟨S100000x64, .f32⟩
  | 127 => ⟨S_, .i32⟩
  | _ => ⟨S100000x128, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000x64, .f32⟩
  | 8 => ⟨S1700000x1, .f32⟩
  | 9 => ⟨S1700000x64, .f32⟩
  | 10 => ⟨S1700000x64, .f32⟩
  | 11 => ⟨S_, .f32⟩
  | 12 => ⟨S100000x64, .f32⟩
  | 13 => ⟨S1700000x1, .i32⟩
  | 14 => ⟨S100000x64, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x64, .f32⟩
  | 24 => ⟨S1700000x1, .f32⟩
  | 25 => ⟨S1700000x64, .f32⟩
  | 26 => ⟨S1700000x64, .f32⟩
  | 27 => ⟨S_, .f32⟩
  | 28 => ⟨S100000x64, .f32⟩
  | 29 => ⟨S1700000x1, .i32⟩
  | 30 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_15 : Ref sig .tc := ⟨.hbm, 106, rfl⟩
abbrev main_v79 : Ref sig .tc := ⟨.hbm, 107, rfl⟩
abbrev main_v80 : Ref sig .tc := ⟨.hbm, 108, rfl⟩
abbrev main_c_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_17 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_18 : Ref sig .tc := ⟨.hbm, 127, rfl⟩
abbrev main_v97 : Ref sig .tc := ⟨.hbm, 128, rfl⟩
abbrev main_v98 : Ref sig .tc := ⟨.hbm, 129, rfl⟩
abbrev main_c_19 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_20 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_c_21 : Ref sig .tc := ⟨.hbm, 143, rfl⟩
abbrev main_v110 : Ref sig .tc := ⟨.hbm, 144, rfl⟩
abbrev main_v111 : Ref sig .tc := ⟨.hbm, 145, rfl⟩
abbrev main_c_22 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_23 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel program's run, with its final buffer contents named.

  @main is nine segments: host stretch, host stretch, host stretch, linear layer 0, host stretch, linear layer 1, host
  stretch, linear layer 2, host stretch. The generated frame folds the buffer contents through them: `Gen.W9 m ρ c` is what core
  `c`'s unscoped buffers hold when @main returns, as a function of the launch memory. Here the same segments are run
  once more through the library's theorem for a program of several regions, keeping in the post what the last thread
  state says of EVERY unscoped buffer — so in particular of the result buffer, which the frame claim forgets.
-/
import proofs.«180812_j66073776882320_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final memory every unscoped buffer
    `b` of every core `c` holds `Gen.W9 m ρ c b`: any post `Q` that follows from that reading holds of the run. -/
theorem run_reading {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- The run with the result buffer and the eight argument buffers read: the result ends at `Gen.W9`'s contents of it,
    each argument as launched. -/
theorem run_result : θ_run defs (onTc (τ := τ) (main (F := F))) ⟨m, fun _ => 0, ρ⟩ (fun r => ∀ c : Dev nD,
      r.2.mem ((c.tc : Thread nD τ).loc main_v116) = W9 m ρ c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_reading m ρ (fun s h c =>
    ⟨h c _ (mem_uc main_v116 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩)

end Cert.KernelIdeal.Whole

end
-- ==== Proof.Layer.lean ====
/-
  A dense layer as one function of its three arrays, index by index, on the extended reals:

      out[r, c] = Σ_k h[r, k] · wt[k, c] + b[0, c]        (k over the 128 input features)

  for the two output widths the network uses (128 and 64). `wt` is the weight matrix already transposed to
  [features in, features out] and `b` the bias as a one-row matrix, which is how both programs hold them when the
  layer is applied. Nothing here is tiled: a row block of `out` depends on the same row block of `h` only.
-/
import proofs.«180812_j66073776882320_1_alg».proof.KernelIdeal
import Idealize.ShloMosaic.PureOps.Ideal
import Idealize.ShloMosaic.Lib.ValueIdx

noncomputable section

open scoped BigOperators

namespace Cert.KernelIdeal.Layer

open Cert.KernelIdeal Idealize.ShloMosaic

/-! ## Width 128 -/

/-- Entry (r, k) of the layer's input, for the output entry `i` = (r, c). -/
abbrev inAt (i : S100000x128.Idx) (k : Fin 128) : S100000x128.Idx := fun a => match a with
  | ⟨0, _⟩ => ⟨(i 0).val, (i 0).isLt⟩
  | ⟨1, _⟩ => ⟨k.val, k.isLt⟩
/-- Entry (k, c) of the transposed weights, for the output entry `i` = (r, c). -/
abbrev wAt (i : S100000x128.Idx) (k : Fin 128) : S128x128.Idx := fun a => match a with
  | ⟨0, _⟩ => ⟨k.val, k.isLt⟩
  | ⟨1, _⟩ => ⟨(i 1).val, (i 1).isLt⟩
/-- Entry (0, c) of the bias row, for the output entry `i` = (r, c). -/
abbrev bAt (i : S100000x128.Idx) : S1x128.Idx := fun a => match a with
  | ⟨0, _⟩ => ⟨0, Nat.one_pos⟩
  | ⟨1, _⟩ => ⟨(i 1).val, (i 1).isLt⟩

/-- The layer of width 128. -/
def dense128 (h : S100000x128.Idx → EReal) (wt : S128x128.Idx → EReal) (b : S1x128.Idx → EReal) : S100000x128.Idx → EReal :=
  fun i => (∑ k : Fin 128, h (inAt i k) * wt (wAt i k)) + b (bAt i)

/-! ## Width 64 -/

/-- Entry (r, k) of the layer's input, for the output entry `i` = (r, c) of the narrow layer. -/
abbrev inAt64 (i : S100000x64.Idx) (k : Fin 128) : S100000x128.Idx := fun a => match a with
  | ⟨0, _⟩ => ⟨(i 0).val, (i 0).isLt⟩
  | ⟨1, _⟩ => ⟨k.val, k.isLt⟩
/-- Entry (k, c) of the transposed weights of the narrow layer. -/
abbrev wAt64 (i : S100000x64.Idx) (k : Fin 128) : S128x64.Idx := fun a => match a with
  | ⟨0, _⟩ => ⟨k.val, k.isLt⟩
  | ⟨1, _⟩ => ⟨(i 1).val, (i 1).isLt⟩
/-- Entry (0, c) of the bias row of the narrow layer. -/
abbrev bAt64 (i : S100000x64.Idx) : S1x64.Idx := fun a => match a with
  | ⟨0, _⟩ => ⟨0, Nat.one_pos⟩
  | ⟨1, _⟩ => ⟨(i 1).val, (i 1).isLt⟩

/-- The layer of width 64. -/
def dense64 (h : S100000x128.Idx → EReal) (wt : S128x64.Idx → EReal) (b : S1x64.Idx → EReal) : S100000x64.Idx → EReal :=
  fun i => (∑ k : Fin 128, h (inAt64 i k) * wt (wAt64 i k)) + b (bAt64 i)

end Cert.KernelIdeal.Layer

end
-- ==== Proof.RefLayer.lean ====
/-
  The reference's three dense layers, each as the layer function of what it is applied to.

  The reference applies a layer as one matrix product of the whole activation array with the transposed weights, plus
  the bias broadcast first to a one-row matrix and then down the rows. Read at an entry (r, c) that is
  Σ_k h[r, k] · wt[k, c] + b[0, c]: the layer function of Proof/Layer.lean, with the one-row bias matrix the
  reference's own. The kernel program instead RESHAPES the bias vector to a one-row matrix; the two one-row matrices
  are the same array.
-/
import proofs.«180812_j66073776882320_1_alg».proof.Proof.RefRead
import proofs.«180812_j66073776882320_1_alg».proof.Proof.Layer
import Idealize.ShloMosaic.Lib.Pipeline.Value

set_option maxRecDepth 16384

noncomputable section

open scoped BigOperators

namespace Cert.ReferenceIdeal.Layers

open Cert.ReferenceIdeal Cert.ReferenceIdeal.Read Idealize.ShloMosaic
open Cert.KernelIdeal.Layer (dense128 dense64)

/-! ## The layers -/

theorem layer0 (x0 : (⟨S100000x128, .f32⟩ : BufTy).Contents (Elt Ideal)) (x2 : (⟨S128x128, .f32⟩ : BufTy).Contents (Elt Ideal))
    (x3 : (⟨S128, .f32⟩ : BufTy).Contents (Elt Ideal)) :
    val_main_v34 (F := Ideal) x0 x2 x3 = dense128 x0 (val_main_v30 (F := Ideal) x2) (val_main_v32 (F := Ideal) x3) := by
  funext i
  rw [val_main_v34_apply, val_main_v31_apply, val_main_v33_apply]
  rfl

theorem layer1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v65 (F := Ideal) x0 x1 x2 x3 x4 x5
      = dense128 (val_main_v60 (F := Ideal) x0 x1 x2 x3) (val_main_v61 (F := Ideal) x4) (val_main_v63 (F := Ideal) x5) := by
  funext i
  rw [val_main_v65_apply, val_main_v62_apply, val_main_v64_apply]
  rfl

theorem layer2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S64x128, .f32⟩ : BufTy).Contents (Elt Ideal)) (x7 : (⟨S64, .f32⟩ : BufTy).Contents (Elt Ideal)) :
    val_main_v96 (F := Ideal) x0 x1 x2 x3 x4 x5 x6 x7
      = dense64 (val_main_v91 (F := Ideal) x0 x1 x2 x3 x4 x5) (val_main_v92 (F := Ideal) x6) (val_main_v94 (F := Ideal) x7) := by
  funext i
  rw [val_main_v96_apply, val_main_v93_apply, val_main_v95_apply]
  rfl

/-! ## The bias as a one-row matrix: the reshape of the vector is its broadcast along a new leading axis -/

theorem bias_row0 (b : (⟨S128, .f32⟩ : BufTy).Contents (Elt Ideal)) (h : S128.ShapeCasts S1x128) :
    shapeCast S1x128 b h = val_main_v32 (F := Ideal) b := by
  funext j
  rw [val_main_v32_apply]
  refine (shapeCast_addUnit_apply ![128] b h j).trans (congrArg b (funext fun a => ?_))
  match a with
  | ⟨0, _⟩ => rfl

theorem bias_row1 (b : (⟨S128, .f32⟩ : BufTy).Contents (Elt Ideal)) (h : S128.ShapeCasts S1x128) :
    shapeCast S1x128 b h = val_main_v63 (F := Ideal) b := by
  funext j
  rw [val_main_v63_apply]
  refine (shapeCast_addUnit_apply ![128] b h j).trans (congrArg b (funext fun a => ?_))
  match a with
  | ⟨0, _⟩ => rfl

theorem bias_row2 (b : (⟨S64, .f32⟩ : BufTy).Contents (Elt Ideal)) (h : S64.ShapeCasts S1x64) :
    shapeCast S1x64 b h = val_main_v94 (F := Ideal) b := by
  funext j
  rw [val_main_v94_apply]
  refine (shapeCast_addUnit_apply ![64] b h j).trans (congrArg b (funext fun a => ?_))
  match a with
  | ⟨0, _⟩ => rfl

end Cert.ReferenceIdeal.Layers

end
-- ==== Proof.Body0.lean ====
/-
  Layer 0's kernel body at an entry of its block.

  The body loads a block of 5000 rows of the input, the whole transposed weight matrix and the bias row, rounds the
  first two to bf16 (no change on the extended reals), multiplies them on the matrix unit into a zero accumulator, adds
  the bias row broadcast down the rows, and stores the block. On the extended reals the stored entry (p, q) is therefore
  Σ_k x[p, k] · w[k, q] + b[0, q].
-/
import proofs.«180812_j66073776882320_1_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Body0

open Cert.KernelIdeal Cert.KernelIdeal.Gen Idealize.ShloMosaic Idealize.ShloMosaic.ValueIdx

/-- Entry (p, k) of the loaded input block, for the block's entry `j` = (p, q). -/
abbrev xAt (j : S5000x128.Idx) (k : Fin 128) : S5000x128.Idx := fun a => match a with
  | ⟨0, _⟩ => ⟨(j 0).val, (j 0).isLt⟩
  | ⟨1, _⟩ => ⟨k.val, k.isLt⟩
/-- Entry (k, q) of the loaded weights. -/
abbrev wAt (j : S5000x128.Idx) (k : Fin 128) : S128x128.Idx := fun a => match a with
  | ⟨0, _⟩ => ⟨k.val, k.isLt⟩
  | ⟨1, _⟩ => ⟨(j 1).val, (j 1).isLt⟩
/-- Entry (0, q) of the loaded bias row. -/
abbrev bAt (j : S5000x128.Idx) : S1x128.Idx := fun a => match a with
  | ⟨0, _⟩ => ⟨0, Nat.one_pos⟩
  | ⟨1, _⟩ => ⟨(j 1).val, (j 1).isLt⟩

theorem lhs0 (j : S5000x128.Idx) (q : (dot_S5000x128_S128x128_S5000x128_1_0_0_1_n_n).contr.Idx) :
    ((dot_S5000x128_S128x128_S5000x128_1_0_0_1_n_n).lhsIdx j q 0).val = (j 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl
theorem rhs1 (j : S5000x128.Idx) (q : (dot_S5000x128_S128x128_S5000x128_1_0_0_1_n_n).contr.Idx) :
    ((dot_S5000x128_S128x128_S5000x128_1_0_0_1_n_n).rhsIdx j q 1).val = (j 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- The matrix unit's product into a zero accumulator, at an entry: the plain sum over the 128 features. -/
theorem matmul_at (a : FVec Ideal S5000x128 .bf16) (w : FVec Ideal S128x128 .bf16) (j : S5000x128.Idx) :
    matmul (F := Ideal) dot_S5000x128_S128x128_S5000x128_1_0_0_1_n_n none a w (constant S5000x128 .f32 0x00000000#32) j
      = ∑ k : Fin 128, a (xAt j k) * w (wAt j k) := by
  show FloatOps.matmul _ _ _ _ _ j = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : (dot_S5000x128_S128x128_S5000x128_1_0_0_1_n_n).lhsIdx j
      ((contrEquiv1 dot_S5000x128_S128x128_S5000x128_1_0_0_1_n_n 128 rfl rfl).symm k) = xAt j k :=
    funext fun a => Fin.ext (by
      match a with
      | ⟨0, _⟩ => exact lhs0 _ _
      | ⟨1, _⟩ => exact ((dot_S5000x128_S128x128_S5000x128_1_0_0_1_n_n).lhsIdx_val_of_single rfl j _).trans hk)
  have er : (dot_S5000x128_S128x128_S5000x128_1_0_0_1_n_n).rhsIdx j
      ((contrEquiv1 dot_S5000x128_S128x128_S5000x128_1_0_0_1_n_n 128 rfl rfl).symm k) = wAt j k :=
    funext fun a => Fin.ext (by
      match a with
      | ⟨0, _⟩ => exact ((dot_S5000x128_S128x128_S5000x128_1_0_0_1_n_n).rhsIdx_val_of_single rfl j _).trans hk
      | ⟨1, _⟩ => exact rhs1 _ _)
  rw [el, er]

/-- The bias row broadcast down the block's rows, at an entry. -/
theorem bias_at (b : FVec Ideal S1x128 .f32) (j : S5000x128.Idx) :
    broadcastTo S5000x128 b broadcasts_S1x128_S5000x128 j = b (bAt j) :=
  broadcastTo_apply b broadcasts_S1x128_S5000x128 j (bAt j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- What the body stores, at an entry of the block. -/
theorem stored_at (x0 : Vec Ideal S5000x128 .f32) (x1 : Vec Ideal S128x128 .f32) (x2 : Vec Ideal S1x128 .f32) (j : S5000x128.Idx) :
    k0_pay1 (F := Ideal) x0 x1 x2 j = (∑ k : Fin 128, x0 (xAt j k) * x1 (wAt j k)) + x2 (bAt j) := by
  unfold k0_pay1
  show matmul (F := Ideal) dot_S5000x128_S128x128_S5000x128_1_0_0_1_n_n none (truncf .bf16 x0 bitsLt_bf16_f32)
      (truncf .bf16 (shapeCast S128x128 x1 shapeCasts_S128x128_S128x128) bitsLt_bf16_f32) (constant S5000x128 .f32 0x00000000#32) j
    + broadcastTo S5000x128 (shapeCast S1x128 x2 shapeCasts_S1x128_S1x128) broadcasts_S1x128_S5000x128 j = _
  rw [matmul_at, bias_at, shapeCast_self, shapeCast_self]
  rfl

end Cert.KernelIdeal.Body0

end
-- ==== Proof.Blocks0.lean ====
/-
  Layer 0 over its grid: from what each of the 20 grid points writes back to the whole output array.

  Point `t` stages rows 5000·t … 5000·t + 4999 of the layer's input, the whole transposed weight matrix and the bias
  row, and writes back the same rows of the output. What it writes is the dense layer of those arrays restricted to
  those rows, because an output entry of a dense layer depends only on its own row of the input. The 20 row blocks
  tile the 100000 rows (row r lies in block r / 5000), so the output array ends holding the dense layer of the three
  arrays as the region finds them.
-/
import proofs.«180812_j66073776882320_1_alg».proof.Proof.Gen.KernelIdeal.Frame
import proofs.«180812_j66073776882320_1_alg».proof.Proof.Body0
import proofs.«180812_j66073776882320_1_alg».proof.Proof.Layer
import Idealize.ShloMosaic.Lib.Pipeline.Value

set_option maxRecDepth 16384

noncomputable section

open scoped BigOperators

namespace Cert.KernelIdeal.Blocks0

open Cert.KernelIdeal Cert.KernelIdeal.Gen Idealize.ShloMosaic Idealize.ShloMosaic.TcCoe Idealize.SL.Sem
open Idealize.ShloMosaic.Pipeline (Dat)

-- the buffers' contents when the region is entered
variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: the input's and the output's row block is the point's number, everything else is
    block 0. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- The staged input block at (p, k) is the input array at (the output entry's row, k). -/
theorem input_read (c : Dev nD) (t : Fin cfg0.N) (j : S5000x128.Idx) (k : Fin 128) :
    iblk0 V c 0 t (Body0.xAt j k) = V c main_arg0 (Layer.inAt (((cfg0.win 3).blk t).view.emb j) k) := by
  obtain ⟨e0, e1, e2, e3, e4, e5, e6, e7⟩ := index_facts t
  show V c main_arg0 (((cfg0.win 0).blk t).view.emb (Body0.xAt j k)) = V c main_arg0 _
  refine congrArg (V c main_arg0) (funext fun a => Fin.ext ?_)
  match a with
  | ⟨0, _⟩ => show win0_0.index t (0 : Fin 2) * 5000 + 1 * (j 0).val = win0_3.index t (0 : Fin 2) * 5000 + 1 * (j 0).val; omega
  | ⟨1, _⟩ => show win0_0.index t (1 : Fin 2) * 128 + 1 * k.val = k.val; omega

/-- The staged weights at (k, q) are the weight array at (k, the output entry's column). -/
theorem weight_read (c : Dev nD) (t : Fin cfg0.N) (j : S5000x128.Idx) (k : Fin 128) :
    iblk0 V c 1 t (Body0.wAt j k) = V c main_v30 (Layer.wAt (((cfg0.win 3).blk t).view.emb j) k) := by
  obtain ⟨e0, e1, e2, e3, e4, e5, e6, e7⟩ := index_facts t
  show V c main_v30 (((cfg0.win 1).blk t).view.emb (Body0.wAt j k)) = V c main_v30 _
  refine congrArg (V c main_v30) (funext fun a => Fin.ext ?_)
  match a with
  | ⟨0, _⟩ => show win0_1.index t (0 : Fin 2) * 128 + 1 * k.val = k.val; omega
  | ⟨1, _⟩ => show win0_1.index t (1 : Fin 2) * 128 + 1 * (j 1).val = win0_3.index t (1 : Fin 2) * 128 + 1 * (j 1).val; omega

/-- The staged bias row at (0, q) is the bias array at (0, the output entry's column). -/
theorem bias_read (c : Dev nD) (t : Fin cfg0.N) (j : S5000x128.Idx) :
    iblk0 V c 2 t (Body0.bAt j) = V c main_v31 (Layer.bAt (((cfg0.win 3).blk t).view.emb j)) := by
  obtain ⟨e0, e1, e2, e3, e4, e5, e6, e7⟩ := index_facts t
  show V c main_v31 (((cfg0.win 2).blk t).view.emb (Body0.bAt j)) = V c main_v31 _
  refine congrArg (V c main_v31) (funext fun a => Fin.ext ?_)
  match a with
  | ⟨0, _⟩ => show win0_2.index t (0 : Fin 2) * 1 + 1 * 0 = 0; omega
  | ⟨1, _⟩ => show win0_2.index t (1 : Fin 2) * 128 + 1 * (j 1).val = win0_3.index t (1 : Fin 2) * 128 + 1 * (j 1).val; omega

/-- What point `t` writes back is block `t` of the dense layer of the arrays as the region finds them. -/
theorem written_back (c : Dev nD) (t : Fin cfg0.N) :
    (dat0 V c).flushed 3 t = ((cfg0.win 3).blk t).view.read (Elt Ideal)
      (Layer.dense128 (V c main_arg0) (V c main_v30) (V c main_v31)) := by
  show (cfg0.win 3).cut (grid0.coords t) ((dat0 V c).after 3 t) = _
  rw [after0_3]
  unfold out0_3
  rw [View.canon_unit_zero zero2]
  simp only [View.ld_unit_zero (S := S5000x128) zero2, View.ld_unit_zero (S := S128x128) zero2, View.ld_unit_zero (S := S1x128) zero2]
  funext j
  show k0_pay1 (F := Ideal) (iblk0 V c 0 t) (iblk0 V c 1 t) (iblk0 V c 2 t) j
    = Layer.dense128 (V c main_arg0) (V c main_v30) (V c main_v31) (((cfg0.win 3).blk t).view.emb j)
  refine (Body0.stored_at (iblk0 V c 0 t) (iblk0 V c 1 t) (iblk0 V c 2 t) j).trans ?_
  unfold Layer.dense128
  rw [bias_read V c t j]
  exact congrArg (· + _) (Finset.sum_congr rfl fun k _ => by rw [input_read V c t j k, weight_read V c t j k])

/-- An index of the output array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v32).slice (win0_3.rect t)).set ↔ _
  rw [View.set_slice_whole, Rect.mem_set_unit]
  exact Iff.rfl

/-- Every entry of the output array is in some point's block: row r in block r / 5000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 5000 < 20 := by omega
  obtain ⟨e0, e1, e2, e3, e4, e5, e6, e7⟩ := index_facts ⟨(i 0).val / 5000, ht⟩
  have e7' : win0_3.index ⟨(i 0).val / 5000, ht⟩ (0 : Fin 2) = (i 0).val / 5000 := e7
  refine ⟨⟨(i 0).val / 5000, ht⟩, flush0_3 _, ?_⟩
  rw [mem_block]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- The output array after the region: the dense layer of the input, the weights and the bias row as the region
    finds them. -/
theorem output (c : Dev nD) :
    (dat0 V c).arrAt 3 cfg0.N = Layer.dense128 (V c main_arg0) (V c main_v30) (V c main_v31) :=
  (dat0 V c).arrAt_eq_of_cover 3 _ (fun t _ => written_back V c t) covered

end Cert.KernelIdeal.Blocks0

end
-- ==== Proof.Body1.lean ====
/-
  Layer 1's kernel body at an entry of its block: the same arithmetic as layer 0's, with one more shape cast of the
  loaded input block to its own shape (the identity). The stored entry (p, q) is Σ_k x[p, k] · w[k, q] + b[0, q].
-/
import proofs.«180812_j66073776882320_1_alg».proof.Proof.Body0

set_option maxRecDepth 16384

noncomputable section

open scoped BigOperators

namespace Cert.KernelIdeal.Body1

open Cert.KernelIdeal Cert.KernelIdeal.Gen Idealize.ShloMosaic Idealize.ShloMosaic.ValueIdx

/-- What the body stores, at an entry of the block. -/
theorem stored_at (x0 : Vec Ideal S5000x128 .f32) (x1 : Vec Ideal S128x128 .f32) (x2 : Vec Ideal S1x128 .f32) (j : S5000x128.Idx) :
    k1_pay1 (F := Ideal) x0 x1 x2 j = (∑ k : Fin 128, x0 (Body0.xAt j k) * x1 (Body0.wAt j k)) + x2 (Body0.bAt j) := by
  unfold k1_pay1
  show matmul (F := Ideal) dot_S5000x128_S128x128_S5000x128_1_0_0_1_n_n none
      (truncf .bf16 (shapeCast S5000x128 x0 shapeCasts_S5000x128_S5000x128) bitsLt_bf16_f32)
      (truncf .bf16 (shapeCast S128x128 x1 shapeCasts_S128x128_S128x128) bitsLt_bf16_f32) (constant S5000x128 .f32 0x00000000#32) j
    + broadcastTo S5000x128 (shapeCast S1x128 x2 shapeCasts_S1x128_S1x128) broadcasts_S1x128_S5000x128 j = _
  rw [Body0.matmul_at, Body0.bias_at, shapeCast_self, shapeCast_self, shapeCast_self]
  rfl

end Cert.KernelIdeal.Body1

end
-- ==== Proof.Blocks1.lean ====
/-
  Layer 1 over its grid: from what each of the 20 grid points writes back to the whole output array.

  Point `t` stages rows 5000·t … 5000·t + 4999 of the layer's input, the whole transposed weight matrix and the bias
  row, and writes back the same rows of the output. What it writes is the dense layer of those arrays restricted to
  those rows, because an output entry of a dense layer depends only on its own row of the input. The 20 row blocks
  tile the 100000 rows (row r lies in block r / 5000), so the output array ends holding the dense layer of the three
  arrays as the region finds them.
-/
import proofs.«180812_j66073776882320_1_alg».proof.Proof.Gen.KernelIdeal.Frame
import proofs.«180812_j66073776882320_1_alg».proof.Proof.Body1
import proofs.«180812_j66073776882320_1_alg».proof.Proof.Layer
import Idealize.ShloMosaic.Lib.Pipeline.Value

set_option maxRecDepth 16384

noncomputable section

open scoped BigOperators

namespace Cert.KernelIdeal.Blocks1

open Cert.KernelIdeal Cert.KernelIdeal.Gen Idealize.ShloMosaic Idealize.ShloMosaic.TcCoe Idealize.SL.Sem
open Idealize.ShloMosaic.Pipeline (Dat)

-- the buffers' contents when the region is entered
variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: the input's and the output's row block is the point's number, everything else is
    block 0. -/
theorem index_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-- The staged input block at (p, k) is the input array at (the output entry's row, k). -/
theorem input_read (c : Dev nD) (t : Fin cfg1.N) (j : S5000x128.Idx) (k : Fin 128) :
    iblk1 V c 0 t (Body0.xAt j k) = V c main_v58 (Layer.inAt (((cfg1.win 3).blk t).view.emb j) k) := by
  obtain ⟨e0, e1, e2, e3, e4, e5, e6, e7⟩ := index_facts t
  show V c main_v58 (((cfg1.win 0).blk t).view.emb (Body0.xAt j k)) = V c main_v58 _
  refine congrArg (V c main_v58) (funext fun a => Fin.ext ?_)
  match a with
  | ⟨0, _⟩ => show win1_0.index t (0 : Fin 2) * 5000 + 1 * (j 0).val = win1_3.index t (0 : Fin 2) * 5000 + 1 * (j 0).val; omega
  | ⟨1, _⟩ => show win1_0.index t (1 : Fin 2) * 128 + 1 * k.val = k.val; omega

/-- The staged weights at (k, q) are the weight array at (k, the output entry's column). -/
theorem weight_read (c : Dev nD) (t : Fin cfg1.N) (j : S5000x128.Idx) (k : Fin 128) :
    iblk1 V c 1 t (Body0.wAt j k) = V c main_v59 (Layer.wAt (((cfg1.win 3).blk t).view.emb j) k) := by
  obtain ⟨e0, e1, e2, e3, e4, e5, e6, e7⟩ := index_facts t
  show V c main_v59 (((cfg1.win 1).blk t).view.emb (Body0.wAt j k)) = V c main_v59 _
  refine congrArg (V c main_v59) (funext fun a => Fin.ext ?_)
  match a with
  | ⟨0, _⟩ => show win1_1.index t (0 : Fin 2) * 128 + 1 * k.val = k.val; omega
  | ⟨1, _⟩ => show win1_1.index t (1 : Fin 2) * 128 + 1 * (j 1).val = win1_3.index t (1 : Fin 2) * 128 + 1 * (j 1).val; omega

/-- The staged bias row at (0, q) is the bias array at (0, the output entry's column). -/
theorem bias_read (c : Dev nD) (t : Fin cfg1.N) (j : S5000x128.Idx) :
    iblk1 V c 2 t (Body0.bAt j) = V c main_v60 (Layer.bAt (((cfg1.win 3).blk t).view.emb j)) := by
  obtain ⟨e0, e1, e2, e3, e4, e5, e6, e7⟩ := index_facts t
  show V c main_v60 (((cfg1.win 2).blk t).view.emb (Body0.bAt j)) = V c main_v60 _
  refine congrArg (V c main_v60) (funext fun a => Fin.ext ?_)
  match a with
  | ⟨0, _⟩ => show win1_2.index t (0 : Fin 2) * 1 + 1 * 0 = 0; omega
  | ⟨1, _⟩ => show win1_2.index t (1 : Fin 2) * 128 + 1 * (j 1).val = win1_3.index t (1 : Fin 2) * 128 + 1 * (j 1).val; omega

/-- What point `t` writes back is block `t` of the dense layer of the arrays as the region finds them. -/
theorem written_back (c : Dev nD) (t : Fin cfg1.N) :
    (dat1 V c).flushed 3 t = ((cfg1.win 3).blk t).view.read (Elt Ideal)
      (Layer.dense128 (V c main_v58) (V c main_v59) (V c main_v60)) := by
  show (cfg1.win 3).cut (grid1.coords t) ((dat1 V c).after 3 t) = _
  rw [after1_3]
  unfold out1_3
  rw [View.canon_unit_zero zero2]
  simp only [View.ld_unit_zero (S := S5000x128) zero2, View.ld_unit_zero (S := S128x128) zero2, View.ld_unit_zero (S := S1x128) zero2]
  funext j
  show k1_pay1 (F := Ideal) (iblk1 V c 0 t) (iblk1 V c 1 t) (iblk1 V c 2 t) j
    = Layer.dense128 (V c main_v58) (V c main_v59) (V c main_v60) (((cfg1.win 3).blk t).view.emb j)
  refine (Body1.stored_at (iblk1 V c 0 t) (iblk1 V c 1 t) (iblk1 V c 2 t) j).trans ?_
  unfold Layer.dense128
  rw [bias_read V c t j]
  exact congrArg (· + _) (Finset.sum_congr rfl fun k _ => by rw [input_read V c t j k, weight_read V c t j k])

/-- An index of the output array is in point `t`'s block iff each coordinate is in the block's range on its axis. -/
theorem mem_block (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v61).slice (win1_3.rect t)).set ↔ _
  rw [View.set_slice_whole, Rect.mem_set_unit]
  exact Iff.rfl

/-- Every entry of the output array is in some point's block: row r in block r / 5000. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 5000 < 20 := by omega
  obtain ⟨e0, e1, e2, e3, e4, e5, e6, e7⟩ := index_facts ⟨(i 0).val / 5000, ht⟩
  have e7' : win1_3.index ⟨(i 0).val / 5000, ht⟩ (0 : Fin 2) = (i 0).val / 5000 := e7
  refine ⟨⟨(i 0).val / 5000, ht⟩, flush1_3 _, ?_⟩
  rw [mem_block]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    omega

/-- The output array after the region: the dense layer of the input, the weights and the bias row as the region
    finds them. -/
theorem output (c : Dev nD) :
    (dat1 V c).arrAt 3 cfg1.N = Layer.dense128 (V c main_v58) (V c main_v59) (V c main_v60) :=
  (dat1 V c).arrAt_eq_of_cover 3 _ (fun t _ => written_back V c t) covered

end Cert.KernelIdeal.Blocks1

end
-- ==== Proof.Body2.lean ====
/-
  Layer 2's kernel body at an entry of its block.

  The body loads a block of 5000 rows of the input (cast to its own shape, the identity), the whole transposed weight
  matrix (128 by 64) and the bias row, rounds the
  first two to bf16 (no change on the extended reals), multiplies them on the matrix unit into a zero accumulator, adds
  the bias row broadcast down the rows, and stores the block. On the extended reals the stored entry (p, q) is therefore
  Σ_k x[p, k] · w[k, q] + b[0, q].
-/
import proofs.«180812_j66073776882320_1_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Body2

open Cert.KernelIdeal Cert.KernelIdeal.Gen Idealize.ShloMosaic Idealize.ShloMosaic.ValueIdx

/-- Entry (p, k) of the loaded input block, for the block's entry `j` = (p, q). -/
abbrev xAt (j : S5000x64.Idx) (k : Fin 128) : S5000x128.Idx := fun a => match a with
  | ⟨0, _⟩ => ⟨(j 0).val, (j 0).isLt⟩
  | ⟨1, _⟩ => ⟨k.val, k.isLt⟩
/-- Entry (k, q) of the loaded weights. -/
abbrev wAt (j : S5000x64.Idx) (k : Fin 128) : S128x64.Idx := fun a => match a with
  | ⟨0, _⟩ => ⟨k.val, k.isLt⟩
  | ⟨1, _⟩ => ⟨(j 1).val, (j 1).isLt⟩
/-- Entry (0, q) of the loaded bias row. -/
abbrev bAt (j : S5000x64.Idx) : S1x64.Idx := fun a => match a with
  | ⟨0, _⟩ => ⟨0, Nat.one_pos⟩
  | ⟨1, _⟩ => ⟨(j 1).val, (j 1).isLt⟩

theorem lhs0 (j : S5000x64.Idx) (q : (dot_S5000x128_S128x64_S5000x64_1_0_0_1_n_n).contr.Idx) :
    ((dot_S5000x128_S128x64_S5000x64_1_0_0_1_n_n).lhsIdx j q 0).val = (j 0).val := by
  unfold DotDims.lhsIdx
  rw [dif_neg (show ¬(0 : Fin S5000x128.rank) ∈ (dot_S5000x128_S128x64_S5000x64_1_0_0_1_n_n).lhsBatch by decide),
    dif_pos (show (0 : Fin S5000x128.rank) ∈ (dot_S5000x128_S128x64_S5000x64_1_0_0_1_n_n).lhsNonContracting by decide)]
  rfl
theorem rhs1 (j : S5000x64.Idx) (q : (dot_S5000x128_S128x64_S5000x64_1_0_0_1_n_n).contr.Idx) :
    ((dot_S5000x128_S128x64_S5000x64_1_0_0_1_n_n).rhsIdx j q 1).val = (j 1).val := by
  unfold DotDims.rhsIdx
  rw [dif_neg (show ¬(1 : Fin S128x64.rank) ∈ (dot_S5000x128_S128x64_S5000x64_1_0_0_1_n_n).rhsBatch by decide),
    dif_pos (show (1 : Fin S128x64.rank) ∈ (dot_S5000x128_S128x64_S5000x64_1_0_0_1_n_n).rhsNonContracting by decide)]
  rfl

/-- The matrix unit's product into a zero accumulator, at an entry: the plain sum over the 128 features. -/
theorem matmul_at (a : FVec Ideal S5000x128 .bf16) (w : FVec Ideal S128x64 .bf16) (j : S5000x64.Idx) :
    matmul (F := Ideal) dot_S5000x128_S128x64_S5000x64_1_0_0_1_n_n none a w (constant S5000x64 .f32 0x00000000#32) j
      = ∑ k : Fin 128, a (xAt j k) * w (wAt j k) := by
  show FloatOps.matmul _ _ _ _ _ j = _
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : (dot_S5000x128_S128x64_S5000x64_1_0_0_1_n_n).lhsIdx j
      ((contrEquiv1 dot_S5000x128_S128x64_S5000x64_1_0_0_1_n_n 128 rfl rfl).symm k) = xAt j k :=
    funext fun a => Fin.ext (by
      match a with
      | ⟨0, _⟩ => exact lhs0 _ _
      | ⟨1, _⟩ => exact ((dot_S5000x128_S128x64_S5000x64_1_0_0_1_n_n).lhsIdx_val_of_single rfl j _).trans hk)
  have er : (dot_S5000x128_S128x64_S5000x64_1_0_0_1_n_n).rhsIdx j
      ((contrEquiv1 dot_S5000x128_S128x64_S5000x64_1_0_0_1_n_n 128 rfl rfl).symm k) = wAt j k :=
    funext fun a => Fin.ext (by
      match a with
      | ⟨0, _⟩ => exact ((dot_S5000x128_S128x64_S5000x64_1_0_0_1_n_n).rhsIdx_val_of_single rfl j _).trans hk
      | ⟨1, _⟩ => exact rhs1 _ _)
  rw [el, er]

/-- The bias row broadcast down the block's rows, at an entry. -/
theorem bias_at (b : FVec Ideal S1x64 .f32) (j : S5000x64.Idx) :
    broadcastTo S5000x64 b broadcasts_S1x64_S5000x64 j = b (bAt j) :=
  broadcastTo_apply b broadcasts_S1x64_S5000x64 j (bAt j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-- What the body stores, at an entry of the block. -/
theorem stored_at (x0 : Vec Ideal S5000x128 .f32) (x1 : Vec Ideal S128x64 .f32) (x2 : Vec Ideal S1x64 .f32) (j : S5000x64.Idx) :
    k2_pay1 (F := Ideal) x0 x1 x2 j = (∑ k : Fin 128, x0 (xAt j k) * x1 (wAt j k)) + x2 (bAt j) := by
  unfold k2_pay1
  show matmul (F := Ideal) dot_S5000x128_S128x64_S5000x64_1_0_0_1_n_n none (truncf .bf16 (shapeCast S5000x128 x0 shapeCasts_S5000x128_S5000x128) bitsLt_bf16_f32)
      (truncf .bf16 (shapeCast S128x64 x1 shapeCasts_S128x64_S128x64) bitsLt_bf16_f32) (constant S5000x64 .f32 0x00000000#32) j
    + broadcastTo S5000x64 (shapeCast S1x64 x2 shapeCasts_S1x64_S1x64) broadcasts_S1x64_S5000x64 j = _
  rw [matmul_at, bias_at, shapeCast_self, shapeCast_self, shapeCast_self]
  rfl

end Cert.KernelIdeal.Body2

end
-- ==== Proof.Blocks2.lean ====
/-
  Layer 2 over its grid: from what each of the 20 grid points writes back to the whole output array.

  Point `t` stages rows 5000·t … 5000·t + 4999 of the layer's input, the whole transposed weight matrix (128 by 64) and the bias
  row, and writes back the same rows of the output. What it writes is the dense layer of those arrays restricted to
  those rows, because an output entry of a dense layer depends only on its own row of the input. The 20 row blocks
  tile the 100000 rows (row r lies in block r / 5000), so the output array ends holding the dense layer of the three
  arrays as the region finds them.
-/
import proofs.«180812_j66073776882320_1_alg».proof.Proof.Gen.KernelIdeal.Frame
import proofs.«180812_j66073776882320_1_alg».proof.Proof.Body2
import proofs.«180812_j66073776882320_1_alg».proof.Proof.Layer
import Idealize.ShloMosaic.Lib.Pipeline.Value

set_option maxRecDepth 16384

noncomputable section

open scoped BigOperators

namespace Cert.KernelIdeal.Blocks2

open Cert.KernelIdeal Cert.KernelIdeal.Gen Idealize.ShloMosaic Idealize.ShloMosaic.TcCoe Idealize.SL.Sem
open Idealize.ShloMosaic.Pipeline (Dat)

-- the buffers' contents when the region is entered
variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: the input's and the output's row block is the point's number, everything else is
    block 0. -/
theorem index_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) = t.val :=
  (by decide +kernel : ∀ t : Fin grid2.N, _)

/-- The staged input block at (p, k) is the input array at (the output entry's row, k). -/
theorem input_read (c : Dev nD) (t : Fin cfg2.N) (j : S5000x64.Idx) (k : Fin 128) :
    iblk2 V c 0 t (Body2.xAt j k) = V c main_v87 (Layer.inAt64 (((cfg2.win 3).blk t).view.emb j) k) := by
  obtain ⟨e0, e1, e2, e3, e4, e5, e6, e7⟩ := index_facts t
  show V c main_v87 (((cfg2.win 0).blk t).view.emb (Body2.xAt j k)) = V c main_v87 _
  refine congrArg (V c main_v87) (funext fun a => Fin.ext ?_)
  match a with
  | ⟨0, _⟩ => show win2_0.index t (0 : Fin 2) * 5000 + 1 * (j 0).val = win2_3.index t (0 : Fin 2) * 5000 + 1 * (j 0).val; omega
  | ⟨1, _⟩ => show win2_0.index t (1 : Fin 2) * 128 + 1 * k.val = k.val; omega

/-- The staged weights at (k, q) are the weight array at (k, the output entry's column). -/
theorem weight_read (c : Dev nD) (t : Fin cfg2.N) (j : S5000x64.Idx) (k : Fin 128) :
    iblk2 V c 1 t (Body2.wAt j k) = V c main_v88 (Layer.wAt64 (((cfg2.win 3).blk t).view.emb j) k) := by
  obtain ⟨e0, e1, e2, e3, e4, e5, e6, e7⟩ := index_facts t
  show V c main_v88 (((cfg2.win 1).blk t).view.emb (Body2.wAt j k)) = V c main_v88 _
  refine congrArg (V c main_v88) (funext fun a => Fin.ext ?_)
  match a with
  | ⟨0, _⟩ => show win2_1.index t (0 : Fin 2) * 128 + 1 * k.val = k.val; omega
  | ⟨1, _⟩ => show win2_1.index t (1 : Fin 2) * 64 + 1 * (j 1).val = win2_3.index t (1 : Fin 2) * 64 + 1 * (j 1).val; omega

/-- The staged bias row at (0, q) is the bias array at (0, the output entry's column). -/
theorem bias_read (c : Dev nD) (t : Fin cfg2.N) (j : S5000x64.Idx) :
    iblk2 V c 2 t (Body2.bAt j) = V c main_v89 (Layer.bAt64 (((cfg2.win 3).blk t).view.emb j)) := by
  obtain ⟨e0, e1, e2, e3, e4, e5, e6, e7⟩ := index_facts t
  show V c main_v89 (((cfg2.win 2).blk t).view.emb (Body2.bAt j)) = V c main_v89 _
  refine congrArg (V c main_v89) (funext fun a => Fin.ext ?_)
  match a with
  | ⟨0, _⟩ => show win2_2.index t (0 : Fin 2) * 1 + 1 * 0 = 0; omega
  | ⟨1, _⟩ => show win2_2.index t (1 : Fin 2) * 64 + 1 * (j 1).val = win2_3.index t (1 : Fin 2) * 64 + 1 * (j 1).val; omega

/-- What point `t` writes back is block `t` of the dense layer of the arrays as the region finds them. -/
theorem written_back (c : Dev nD) (t : Fin cfg2.N) :
    (dat2 V c).flushed 3 t = ((cfg2.win 3).blk t).view.read (Elt Ideal)
      (Layer.dense64 (V c main_v87) (V c main_v88) (V c main_v89)) := by
  show (cfg2.win 3).cut (grid2.coords t) ((dat2 V c).after 3 t) = _
  rw [after2_3]
  unfold out2_3
  rw [View.canon_unit_zero zero2]
  simp only [View.ld_unit_zero (S := S5000x128) zero2, View.ld_unit_zero (S := S128x64) zero2, View.ld_unit_zero (S := S1x64) zero2]
  funext j
  show k2_pay1 (F := Ideal) (iblk2 V c 0 t) (iblk2 V c 1 t) (iblk2 V c 2 t) j
    = Layer.dense64 (V c main_v87) (V c main_v88) (V c main_v89) (((cfg2.win 3).blk t).view.emb j)
  refine (Body2.stored_at (iblk2 V c 0 t) (iblk2 V c 1 t) (iblk2 V c 2 t) j).trans ?_
  unfold Layer.dense64
  rw [bias_read V c t j]
  exact congrArg (· + _) (Finset.sum_congr rfl fun k _ => by rw [input_read V c t j k, weight_read V c t j k])

/-- An index of the output array is in point `t`'s block iff each coordinate is in the block's range on its axis. -/
theorem mem_block (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v90).slice (win2_3.rect t)).set ↔ _
  rw [View.set_slice_whole, Rect.mem_set_unit]
  exact Iff.rfl

/-- Every entry of the output array is in some point's block: row r in block r / 5000. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have ht : (i 0).val / 5000 < 20 := by omega
  obtain ⟨e0, e1, e2, e3, e4, e5, e6, e7⟩ := index_facts ⟨(i 0).val / 5000, ht⟩
  have e7' : win2_3.index ⟨(i 0).val / 5000, ht⟩ (0 : Fin 2) = (i 0).val / 5000 := e7
  refine ⟨⟨(i 0).val / 5000, ht⟩, flush2_3 _, ?_⟩
  rw [mem_block]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    omega

/-- The output array after the region: the dense layer of the input, the weights and the bias row as the region
    finds them. -/
theorem output (c : Dev nD) :
    (dat2 V c).arrAt 3 cfg2.N = Layer.dense64 (V c main_v87) (V c main_v88) (V c main_v89) :=
  (dat2 V c).arrAt_eq_of_cover 3 _ (fun t _ => written_back V c t) covered

end Cert.KernelIdeal.Blocks2

end
-- ==== Proof.HostChain.lean ====
/-
  The kernel program's buffers at every boundary between its host stretches and its three layers, named by the
  reference's own stages.

  Both programs prepare, from the edge list alone, the edges' rows and columns with the self loops appended and every
  edge's normalisation weight; then, three times over, they apply a dense layer and propagate its output twice along
  the edges (gather the rows' sources, scale by the edge weight, scatter-add into the targets). The host operations are
  the same in the two programs, one for one, so each host stretch of the kernel program takes equal inputs to equal
  outputs; the only place the programs differ is how a dense layer is computed, and there the tiled layer's output
  array is the layer function of its inputs (Proof/Blocks0.lean, Blocks1.lean, Blocks2.lean), which is also what the
  reference's matrix product and broadcast bias amount to (Proof/RefLayer.lean). Following the boundaries in order,
  the result buffer ends holding the reference's result term of the same arguments.
-/
import proofs.«180812_j66073776882320_1_alg».proof.Proof.Gen.KernelIdeal.Frame
import proofs.«180812_j66073776882320_1_alg».proof.Proof.RefLayer
import proofs.«180812_j66073776882320_1_alg».proof.Proof.Blocks0
import proofs.«180812_j66073776882320_1_alg».proof.Proof.Blocks1
import proofs.«180812_j66073776882320_1_alg».proof.Proof.Blocks2
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo
open Cert.ReferenceIdeal.Read
open Cert.KernelIdeal.Layer (dense128 dense64)

variable (m : (ℓ : Loc nD τ sig) → Buf (Elt Ideal) ℓ) (ρ : Dev nD → PrngReg)

/-! ## As layer 0 finds them -/

/-- Layer 0's input is the first argument, untouched. -/
theorem in0 (c : Dev nD) : V3 m ρ c main_arg0 = m ((c : Thread nD τ).loc main_arg0) := by
  show after hostOps0_2 (after hostOps0_1 (after hostOps0 (W0 m ρ c))) (Proc.devRef .tc main_arg0) = _
  after_results_simp
/-- Layer 0's weights, transposed. -/
theorem wt0 (c : Dev nD) : V3 m ρ c main_v30 = val_main_v30 (F := Ideal) (m ((c : Thread nD τ).loc main_arg2)) := by
  show after hostOps0_2 (after hostOps0_1 (after hostOps0 (W0 m ρ c))) (Proc.devRef .tc main_v30) = _
  after_results_simp
  rfl
/-- Layer 0's bias as a one-row matrix: the vector reshaped, which is the reference's broadcast of it. -/
theorem b0 (c : Dev nD) : V3 m ρ c main_v31 = val_main_v32 (F := Ideal) (m ((c : Thread nD τ).loc main_arg3)) := by
  show after hostOps0_2 (after hostOps0_1 (after hostOps0 (W0 m ρ c))) (Proc.devRef .tc main_v31) = _
  after_results_simp
  exact Cert.ReferenceIdeal.Layers.bias_row0 _ _
/-- The edges' rows, self loops appended. -/
theorem rows3 (c : Dev nD) : W3 m ρ c (Proc.devRef .tc main_v3) = val_main_v3 (F := Ideal) (m ((c : Thread nD τ).loc main_arg1)) := by
  show after hostOps0_2 (after hostOps0_1 (after hostOps0 (W0 m ρ c))) (Proc.devRef .tc main_v3) = _
  after_results_simp
  rfl
/-- The edges' columns, self loops appended. -/
theorem cols3 (c : Dev nD) : W3 m ρ c (Proc.devRef .tc main_v6) = val_main_v6 (F := Ideal) (m ((c : Thread nD τ).loc main_arg1)) := by
  show after hostOps0_2 (after hostOps0_1 (after hostOps0 (W0 m ρ c))) (Proc.devRef .tc main_v6) = _
  after_results_simp
  rfl
/-! ### The edges' normalisation weights, stretch by stretch

The weight of an edge is the product of the reciprocal roots of its two endpoints' degrees, read through the two index
vectors. The degree, its positivity mask and its reciprocal root come out of the first stretch; the second stretch is
the inlined `where` that puts zero where the degree is not positive; the third gathers and multiplies. Each of the
last two is read over arbitrary buffer contents `V`, so that it takes equal inputs to equal outputs. -/

section AnyContents

variable (V : Valuation τ sig (Elt Ideal))

/-- The inlined `where`: the reciprocal root where the mask holds, the zero constant elsewhere. -/
theorem where_of : after hostOps0_1 V (Proc.devRef .tc main_v14)
    = select (V (Proc.devRef .tc main_v12)) (V (Proc.devRef .tc main_v13))
        (broadcastInDim S100000 ![] bcast_S_S100000 (id (V (Proc.devRef .tc main_cst_2)))) := by
  after_results_simp
  rfl

theorem where_rows : after hostOps0_1 V (Proc.devRef .tc main_v3) = V (Proc.devRef .tc main_v3) := by
  after_results_simp

theorem where_cols : after hostOps0_1 V (Proc.devRef .tc main_v6) = V (Proc.devRef .tc main_v6) := by
  after_results_simp

/-- The edge weights from the masked reciprocal roots and the two index vectors. -/
theorem weights_of (x1 : (⟨S2x1600000, .i32⟩ : BufTy).Contents (Elt Ideal))
    (h14 : V (Proc.devRef .tc main_v14) = val_main_v14 (F := Ideal) x1)
    (h3 : V (Proc.devRef .tc main_v3) = val_main_v3 (F := Ideal) x1)
    (h6 : V (Proc.devRef .tc main_v6) = val_main_v6 (F := Ideal) x1) :
    after hostOps0_2 V (Proc.devRef .tc main_v29) = val_main_v29 (F := Ideal) x1 := by
  after_results_simp
  rw [h14, h3, h6]
  unfold val_main_v29 val_main_v21 val_main_v20 val_main_v19 val_main_v16 val_main_v15 val_main_c val_main_v18 val_main_v17 val_main_c_3 val_main_v28 val_main_v27 val_main_v26 val_main_v23 val_main_v22 val_main_c_4 val_main_v25 val_main_v24 val_main_c_5
  rfl

end AnyContents

/-- After the first stretch: the rows. -/
theorem rows1 (c : Dev nD) : W1 m ρ c (Proc.devRef .tc main_v3) = val_main_v3 (F := Ideal) (m ((c : Thread nD τ).loc main_arg1)) := by
  show after hostOps0 (W0 m ρ c) (Proc.devRef .tc main_v3) = _
  after_results_simp
  rfl

/-- After the first stretch: the columns. -/
theorem cols1 (c : Dev nD) : W1 m ρ c (Proc.devRef .tc main_v6) = val_main_v6 (F := Ideal) (m ((c : Thread nD τ).loc main_arg1)) := by
  show after hostOps0 (W0 m ρ c) (Proc.devRef .tc main_v6) = _
  after_results_simp
  rfl

/-- After the first stretch: where the degree (a scatter of ones along the columns) is positive. -/
theorem pos1 (c : Dev nD) : W1 m ρ c (Proc.devRef .tc main_v12) = val_main_v12 (F := Ideal) (m ((c : Thread nD τ).loc main_arg1)) := by
  show after hostOps0 (W0 m ρ c) (Proc.devRef .tc main_v12) = _
  after_results_simp
  unfold val_main_v12 val_main_v10 val_main_v8 val_main_cst_0 val_main_v9 val_main_v6 val_main_v5 val_main_v4 val_main_v0 val_main_v7 val_main_cst val_main_v11 val_main_cst_1
  rfl

/-- After the first stretch: the reciprocal root of the degree. -/
theorem rsqrt1 (c : Dev nD) : W1 m ρ c (Proc.devRef .tc main_v13) = val_main_v13 (F := Ideal) (m ((c : Thread nD τ).loc main_arg1)) := by
  show after hostOps0 (W0 m ρ c) (Proc.devRef .tc main_v13) = _
  after_results_simp
  unfold val_main_v13 val_main_v10 val_main_v8 val_main_cst_0 val_main_v9 val_main_v6 val_main_v5 val_main_v4 val_main_v0 val_main_v7 val_main_cst
  rfl

/-- After the first stretch: the zero constant the `where` falls back to. -/
theorem zero1 (c : Dev nD) : W1 m ρ c (Proc.devRef .tc main_cst_2) = val_main_cst_2 (F := Ideal) := by
  show after hostOps0 (W0 m ρ c) (Proc.devRef .tc main_cst_2) = _
  after_results_simp
  rfl

/-- After the second stretch: the masked reciprocal root of the degree. -/
theorem dinv2 (c : Dev nD) : W2 m ρ c (Proc.devRef .tc main_v14) = val_main_v14 (F := Ideal) (m ((c : Thread nD τ).loc main_arg1)) := by
  refine (where_of (W1 m ρ c)).trans ?_
  rw [pos1 m ρ c, rsqrt1 m ρ c, zero1 m ρ c]
  rfl

theorem rows2 (c : Dev nD) : W2 m ρ c (Proc.devRef .tc main_v3) = val_main_v3 (F := Ideal) (m ((c : Thread nD τ).loc main_arg1)) :=
  (where_rows (W1 m ρ c)).trans (rows1 m ρ c)

theorem cols2 (c : Dev nD) : W2 m ρ c (Proc.devRef .tc main_v6) = val_main_v6 (F := Ideal) (m ((c : Thread nD τ).loc main_arg1)) :=
  (where_cols (W1 m ρ c)).trans (cols1 m ρ c)

/-- The edges' normalisation weights. -/
theorem norm3 (c : Dev nD) : W3 m ρ c (Proc.devRef .tc main_v29) = val_main_v29 (F := Ideal) (m ((c : Thread nD τ).loc main_arg1)) :=
  weights_of (W2 m ρ c) _ (dinv2 m ρ c) (rows2 m ρ c) (cols2 m ρ c)
/-- Argument 4 is untouched by the first host stretches. -/
theorem a4_3 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results_simp
/-- Argument 5 is untouched by the first host stretches. -/
theorem a5_3 (c : Dev nD) : W3 m ρ c (Proc.devRef .tc main_arg5) = m ((c : Thread nD τ).loc main_arg5) := by
  show after hostOps0_2 (after hostOps0_1 (after hostOps0 (W0 m ρ c))) (Proc.devRef .tc main_arg5) = _
  after_results_simp
/-- Argument 6 is untouched by the first host stretches. -/
theorem a6_3 (c : Dev nD) : W3 m ρ c (Proc.devRef .tc main_arg6) = m ((c : Thread nD τ).loc main_arg6) := by
  show after hostOps0_2 (after hostOps0_1 (after hostOps0 (W0 m ρ c))) (Proc.devRef .tc main_arg6) = _
  after_results_simp
/-- Argument 7 is untouched by the first host stretches. -/
theorem a7_3 (c : Dev nD) : W3 m ρ c (Proc.devRef .tc main_arg7) = m ((c : Thread nD τ).loc main_arg7) := by
  show after hostOps0_2 (after hostOps0_1 (after hostOps0 (W0 m ρ c))) (Proc.devRef .tc main_arg7) = _
  after_results_simp

/-! ## After layer 0 -/

/-- Layer 0's output array is the reference's first layer of the same arguments. -/
theorem out0 (c : Dev nD) : W4 m ρ c (Proc.devRef .tc main_v32) = val_main_v34 (F := Ideal) (m ((c : Thread nD τ).loc main_arg0)) (m ((c : Thread nD τ).loc main_arg2)) (m ((c : Thread nD τ).loc main_arg3)) := by
  refine (W4_arr m ρ c 3).trans ?_
  rw [Blocks0.output (V3 m ρ) c, in0 m ρ c, wt0 m ρ c, b0 m ρ c]
  exact (Cert.ReferenceIdeal.Layers.layer0 _ _ _).symm
/-- The rows are not one of layer 0's arrays. -/
theorem rows4 (c : Dev nD) : W4 m ρ c (Proc.devRef .tc main_v3) = val_main_v3 (F := Ideal) (m ((c : Thread nD τ).loc main_arg1)) :=
  (W4_of_ne m ρ c main_v3 (by decide)).trans (rows3 m ρ c)
/-- The columns are not one of layer 0's arrays. -/
theorem cols4 (c : Dev nD) : W4 m ρ c (Proc.devRef .tc main_v6) = val_main_v6 (F := Ideal) (m ((c : Thread nD τ).loc main_arg1)) :=
  (W4_of_ne m ρ c main_v6 (by decide)).trans (cols3 m ρ c)
/-- The edge weights are not one of layer 0's arrays. -/
theorem norm4 (c : Dev nD) : W4 m ρ c (Proc.devRef .tc main_v29) = val_main_v29 (F := Ideal) (m ((c : Thread nD τ).loc main_arg1)) :=
  (W4_of_ne m ρ c main_v29 (by decide)).trans (norm3 m ρ c)
/-- Argument 4 is not one of layer 0's arrays. -/
theorem a4_4 (c : Dev nD) : W4 m ρ c (Proc.devRef .tc main_arg4) = m ((c : Thread nD τ).loc main_arg4) :=
  (W4_of_ne m ρ c main_arg4 (by decide)).trans (a4_3 m ρ c)
/-- Argument 5 is not one of layer 0's arrays. -/
theorem a5_4 (c : Dev nD) : W4 m ρ c (Proc.devRef .tc main_arg5) = m ((c : Thread nD τ).loc main_arg5) :=
  (W4_of_ne m ρ c main_arg5 (by decide)).trans (a5_3 m ρ c)
/-- Argument 6 is not one of layer 0's arrays. -/
theorem a6_4 (c : Dev nD) : W4 m ρ c (Proc.devRef .tc main_arg6) = m ((c : Thread nD τ).loc main_arg6) :=
  (W4_of_ne m ρ c main_arg6 (by decide)).trans (a6_3 m ρ c)
/-- Argument 7 is not one of layer 0's arrays. -/
theorem a7_4 (c : Dev nD) : W4 m ρ c (Proc.devRef .tc main_arg7) = m ((c : Thread nD τ).loc main_arg7) :=
  (W4_of_ne m ρ c main_arg7 (by decide)).trans (a7_3 m ρ c)

/-! ## As layer 1 finds them: two propagation hops of layer 0's output -/

/-- Layer 1's input: layer 0's output propagated twice along the edges. -/
theorem in1 (c : Dev nD) : V5 m ρ c main_v58 = val_main_v60 (F := Ideal) (m ((c : Thread nD τ).loc main_arg0)) (m ((c : Thread nD τ).loc main_arg1)) (m ((c : Thread nD τ).loc main_arg2)) (m ((c : Thread nD τ).loc main_arg3)) := by
  show after hostOps1 (W4 m ρ c) (Proc.devRef .tc main_v58) = _
  after_results_simp
  rw [out0 m ρ c, rows4 m ρ c, cols4 m ρ c, norm4 m ρ c]
  unfold val_main_v60 val_main_v58 val_main_cst_11 val_main_v59 val_main_v57 val_main_v54 val_main_v47 val_main_v45 val_main_cst_8 val_main_v46 val_main_v44 val_main_v41 val_main_v40 val_main_v39 val_main_v36 val_main_v35 val_main_c_6 val_main_v38 val_main_v37 val_main_c_7 val_main_v43 val_main_v42 val_main_v53 val_main_v52 val_main_v49 val_main_v48 val_main_c_9 val_main_v51 val_main_v50 val_main_c_10 val_main_v56 val_main_v55
  rfl

/-- Layer 1's weights, transposed. -/
theorem wt1 (c : Dev nD) : V5 m ρ c main_v59 = val_main_v61 (F := Ideal) (m ((c : Thread nD τ).loc main_arg4)) := by
  show after hostOps1 (W4 m ρ c) (Proc.devRef .tc main_v59) = _
  after_results_simp
  rw [a4_4 m ρ c]
  rfl

/-- Layer 1's bias as a one-row matrix. -/
theorem b1 (c : Dev nD) : V5 m ρ c main_v60 = val_main_v63 (F := Ideal) (m ((c : Thread nD τ).loc main_arg5)) := by
  show after hostOps1 (W4 m ρ c) (Proc.devRef .tc main_v60) = _
  after_results_simp
  rw [a5_4 m ρ c]
  exact Cert.ReferenceIdeal.Layers.bias_row1 _ _
/-- The rows pass the stretch. -/
theorem rows5 (c : Dev nD) : W5 m ρ c (Proc.devRef .tc main_v3) = val_main_v3 (F := Ideal) (m ((c : Thread nD τ).loc main_arg1)) := by
  show after hostOps1 (W4 m ρ c) (Proc.devRef .tc main_v3) = _
  after_results_simp
  exact rows4 m ρ c
/-- The columns pass the stretch. -/
theorem cols5 (c : Dev nD) : W5 m ρ c (Proc.devRef .tc main_v6) = val_main_v6 (F := Ideal) (m ((c : Thread nD τ).loc main_arg1)) := by
  show after hostOps1 (W4 m ρ c) (Proc.devRef .tc main_v6) = _
  after_results_simp
  exact cols4 m ρ c
/-- The edge weights pass the stretch. -/
theorem norm5 (c : Dev nD) : W5 m ρ c (Proc.devRef .tc main_v29) = val_main_v29 (F := Ideal) (m ((c : Thread nD τ).loc main_arg1)) := by
  show after hostOps1 (W4 m ρ c) (Proc.devRef .tc main_v29) = _
  after_results_simp
  exact norm4 m ρ c
/-- Argument 6 passes the stretch. -/
theorem a6_5 (c : Dev nD) : W5 m ρ c (Proc.devRef .tc main_arg6) = m ((c : Thread nD τ).loc main_arg6) := by
  show after hostOps1 (W4 m ρ c) (Proc.devRef .tc main_arg6) = _
  after_results_simp
  exact a6_4 m ρ c
/-- Argument 7 passes the stretch. -/
theorem a7_5 (c : Dev nD) : W5 m ρ c (Proc.devRef .tc main_arg7) = m ((c : Thread nD τ).loc main_arg7) := by
  show after hostOps1 (W4 m ρ c) (Proc.devRef .tc main_arg7) = _
  after_results_simp
  exact a7_4 m ρ c

/-! ## After layer 1 -/

/-- Layer 1's output array is the reference's second layer of the same arguments. -/
theorem out1 (c : Dev nD) : W6 m ρ c (Proc.devRef .tc main_v61) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ?_
  rw [Blocks1.output (V5 m ρ) c, in1 m ρ c, wt1 m ρ c, b1 m ρ c]
  exact (Cert.ReferenceIdeal.Layers.layer1 _ _ _ _ _ _).symm
/-- The rows are not one of layer 1's arrays. -/
theorem rows6 (c : Dev nD) : W6 m ρ c (Proc.devRef .tc main_v3) = val_main_v3 (F := Ideal) (m ((c : Thread nD τ).loc main_arg1)) :=
  (W6_of_ne m ρ c main_v3 (by decide)).trans (rows5 m ρ c)
/-- The columns are not one of layer 1's arrays. -/
theorem cols6 (c : Dev nD) : W6 m ρ c (Proc.devRef .tc main_v6) = val_main_v6 (F := Ideal) (m ((c : Thread nD τ).loc main_arg1)) :=
  (W6_of_ne m ρ c main_v6 (by decide)).trans (cols5 m ρ c)
/-- The edge weights are not one of layer 1's arrays. -/
theorem norm6 (c : Dev nD) : W6 m ρ c (Proc.devRef .tc main_v29) = val_main_v29 (F := Ideal) (m ((c : Thread nD τ).loc main_arg1)) :=
  (W6_of_ne m ρ c main_v29 (by decide)).trans (norm5 m ρ c)
/-- Argument 6 is not one of layer 1's arrays. -/
theorem a6_6 (c : Dev nD) : W6 m ρ c (Proc.devRef .tc main_arg6) = m ((c : Thread nD τ).loc main_arg6) :=
  (W6_of_ne m ρ c main_arg6 (by decide)).trans (a6_5 m ρ c)
/-- Argument 7 is not one of layer 1's arrays. -/
theorem a7_6 (c : Dev nD) : W6 m ρ c (Proc.devRef .tc main_arg7) = m ((c : Thread nD τ).loc main_arg7) :=
  (W6_of_ne m ρ c main_arg7 (by decide)).trans (a7_5 m ρ c)

/-! ## As layer 2 finds them: two propagation hops of layer 1's output -/

/-- Layer 2's input: layer 1's output propagated twice along the edges. -/
theorem in2 (c : Dev nD) : V7 m ρ c main_v87 = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show after hostOps2 (W6 m ρ c) (Proc.devRef .tc main_v87) = _
  after_results_simp
  rw [out1 m ρ c, rows6 m ρ c, cols6 m ρ c, norm6 m ρ c]
  unfold val_main_v91 val_main_v89 val_main_cst_17 val_main_v90 val_main_v88 val_main_v85 val_main_v78 val_main_v76 val_main_cst_14 val_main_v77 val_main_v75 val_main_v72 val_main_v71 val_main_v70 val_main_v67 val_main_v66 val_main_c_12 val_main_v69 val_main_v68 val_main_c_13 val_main_v74 val_main_v73 val_main_v84 val_main_v83 val_main_v80 val_main_v79 val_main_c_15 val_main_v82 val_main_v81 val_main_c_16 val_main_v87 val_main_v86
  rfl

/-- Layer 2's weights, transposed. -/
theorem wt2 (c : Dev nD) : V7 m ρ c main_v88 = val_main_v92 (F := Ideal) (m ((c : Thread nD τ).loc main_arg6)) := by
  show after hostOps2 (W6 m ρ c) (Proc.devRef .tc main_v88) = _
  after_results_simp
  rw [a6_6 m ρ c]
  rfl

/-- Layer 2's bias as a one-row matrix. -/
theorem b2 (c : Dev nD) : V7 m ρ c main_v89 = val_main_v94 (F := Ideal) (m ((c : Thread nD τ).loc main_arg7)) := by
  show after hostOps2 (W6 m ρ c) (Proc.devRef .tc main_v89) = _
  after_results_simp
  rw [a7_6 m ρ c]
  exact Cert.ReferenceIdeal.Layers.bias_row2 _ _
/-- The rows pass the stretch. -/
theorem rows7 (c : Dev nD) : W7 m ρ c (Proc.devRef .tc main_v3) = val_main_v3 (F := Ideal) (m ((c : Thread nD τ).loc main_arg1)) := by
  show after hostOps2 (W6 m ρ c) (Proc.devRef .tc main_v3) = _
  after_results_simp
  exact rows6 m ρ c
/-- The columns pass the stretch. -/
theorem cols7 (c : Dev nD) : W7 m ρ c (Proc.devRef .tc main_v6) = val_main_v6 (F := Ideal) (m ((c : Thread nD τ).loc main_arg1)) := by
  show after hostOps2 (W6 m ρ c) (Proc.devRef .tc main_v6) = _
  after_results_simp
  exact cols6 m ρ c
/-- The edge weights pass the stretch. -/
theorem norm7 (c : Dev nD) : W7 m ρ c (Proc.devRef .tc main_v29) = val_main_v29 (F := Ideal) (m ((c : Thread nD τ).loc main_arg1)) := by
  show after hostOps2 (W6 m ρ c) (Proc.devRef .tc main_v29) = _
  after_results_simp
  exact norm6 m ρ c

/-! ## After layer 2, and the last two propagation hops -/

/-- Layer 2's output array is the reference's third layer of the same arguments. -/
theorem out2 (c : Dev nD) : W8 m ρ c (Proc.devRef .tc main_v90) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 3).trans ?_
  rw [Blocks2.output (V7 m ρ) c, in2 m ρ c, wt2 m ρ c, b2 m ρ c]
  exact (Cert.ReferenceIdeal.Layers.layer2 _ _ _ _ _ _ _ _).symm
/-- The rows are not one of layer 2's arrays. -/
theorem rows8 (c : Dev nD) : W8 m ρ c (Proc.devRef .tc main_v3) = val_main_v3 (F := Ideal) (m ((c : Thread nD τ).loc main_arg1)) :=
  (W8_of_ne m ρ c main_v3 (by decide)).trans (rows7 m ρ c)
/-- The columns are not one of layer 2's arrays. -/
theorem cols8 (c : Dev nD) : W8 m ρ c (Proc.devRef .tc main_v6) = val_main_v6 (F := Ideal) (m ((c : Thread nD τ).loc main_arg1)) :=
  (W8_of_ne m ρ c main_v6 (by decide)).trans (cols7 m ρ c)
/-- The edge weights are not one of layer 2's arrays. -/
theorem norm8 (c : Dev nD) : W8 m ρ c (Proc.devRef .tc main_v29) = val_main_v29 (F := Ideal) (m ((c : Thread nD τ).loc main_arg1)) :=
  (W8_of_ne m ρ c main_v29 (by decide)).trans (norm7 m ρ c)

/-- THE RESULT: when @main returns, the result buffer holds the reference's result term of the same arguments. -/
theorem result (c : Dev nD) : W9 m ρ c (Proc.devRef .tc main_v116) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show after hostOps3 (W8 m ρ c) (Proc.devRef .tc main_v116) = _
  after_results_simp
  rw [out2 m ρ c, rows8 m ρ c, cols8 m ρ c, norm8 m ρ c]
  unfold val_main_v122 val_main_v120 val_main_cst_23 val_main_v121 val_main_v119 val_main_v116 val_main_v109 val_main_v107 val_main_cst_20 val_main_v108 val_main_v106 val_main_v103 val_main_v102 val_main_v101 val_main_v98 val_main_v97 val_main_c_18 val_main_v100 val_main_v99 val_main_c_19 val_main_v105 val_main_v104 val_main_v115 val_main_v114 val_main_v111 val_main_v110 val_main_c_21 val_main_v113 val_main_v112 val_main_c_22 val_main_v118 val_main_v117
  rfl

end Cert.KernelIdeal.Host

end
-- ==== Proof.lean ====
/-
  A three-layer graph network on 100000 nodes and 1.6 million edges: the kernel program against its reference.

  Both programs compute  P²(P²(P²(x·W0ᵀ + b0)·W1ᵀ + b1)·W2ᵀ + b2),  where P is one propagation step along the edges
  with the self loops added: gather every edge's source row, scale it by the edge's symmetric degree normalisation
  1/√(deg(row)·deg(col)), and scatter-add it into the edge's target row. Everything about the graph, and every
  propagation step, is computed by the same host operations in the two programs. They differ only in the dense
  layers: the reference takes one matrix product of the whole activation array and adds the broadcast bias; the kernel
  program tiles the rows into 20 blocks of 5000, and on each block rounds the operands to bf16, multiplies them on the
  matrix unit into a zero accumulator and adds the bias row. On the extended reals the rounding is the identity and the
  accumulated product is the plain sum Σ_k h[r, k]·W[c, k], so each tiled layer writes, block by block, exactly the
  array the reference's layer is: the two results are equal entry by entry, whatever the inputs (no finiteness is used:
  only that both sides are the same sums of the same products).

  The pieces: Proof/Layer.lean states a dense layer as one function; Proof/Body0–2.lean read each kernel body at an
  entry; Proof/Blocks0–2.lean go from the grid's blocks to the whole output array; Proof/RefLayer.lean reads the
  reference's layers as the same function; Proof/KernelRun.lean runs the kernel program keeping its final buffer
  contents; Proof/HostChain.lean follows those contents through the host stretches and the layers to the result.
  The frames of the two kernel programs are the generated ones; the reference's is its run with the result dropped;
  the idealization rewrote no operation, so there is nothing to preserve.
-/
import proofs.«180812_j66073776882320_1_alg».proof.Defs
import proofs.«180812_j66073776882320_1_alg».proof.Proof.Gen.Kernel
import proofs.«180812_j66073776882320_1_alg».proof.Proof.Gen.Kernel.Skeleton
import proofs.«180812_j66073776882320_1_alg».proof.Proof.Gen.Kernel.Launch
import proofs.«180812_j66073776882320_1_alg».proof.Proof.Gen.Kernel.Points
import proofs.«180812_j66073776882320_1_alg».proof.Proof.Gen.Kernel.Frame
import proofs.«180812_j66073776882320_1_alg».proof.Proof.Gen.KernelIdeal
import proofs.«180812_j66073776882320_1_alg».proof.Proof.Gen.KernelIdeal.Skeleton
import proofs.«180812_j66073776882320_1_alg».proof.Proof.Gen.KernelIdeal.Launch
import proofs.«180812_j66073776882320_1_alg».proof.Proof.Gen.KernelIdeal.Points
import proofs.«180812_j66073776882320_1_alg».proof.Proof.Gen.KernelIdeal.Frame
import proofs.«180812_j66073776882320_1_alg».proof.Proof.Gen.ReferenceIdeal
import proofs.«180812_j66073776882320_1_alg».proof.Proof.Gen.Pre_finite_inputs
import proofs.«180812_j66073776882320_1_alg».proof.Proof.RefRun
import proofs.«180812_j66073776882320_1_alg».proof.Proof.RefRead
import proofs.«180812_j66073776882320_1_alg».proof.Proof.KernelRun
import proofs.«180812_j66073776882320_1_alg».proof.Proof.HostChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the eight arguments both programs run, and the kernel program's result buffer ends
    holding the reference's result term of those arguments: what the kernel program's last buffer contents are
    (Proof/HostChain.lean), and what the reference's run ends at. -/
theorem algebraic : Cert.algebraic_KernelIdeal_ReferenceIdeal := by
  intro m ρ m' ρ' _ hagree
  refine ⟨fun c => Cert.KernelIdeal.Gen.W9 m ρ c (Proc.devRef .tc Cert.KernelIdeal.main_v116),
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v122_eq, a0, a1, a2, a3, a4, a5, a6, a7]
  exact (Cert.KernelIdeal.Host.result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
